-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn_part2 {F : FTy → Type} [FloatOps F] (main_arg7 : FVec F S16x1024x1024 .f32) (main_v33 : IVec S_ 1) : IVec S_ 1 :=
  let main_v34 : FVec F S16x1024x1024 .f32 := Host.absf main_arg7
  let main_cst_12 : FVec F S_ .f32 := constant S_ .f32 0x7F800000#32
  let main_v35 : FVec F S16x1024x1024 .f32 := broadcastInDim S16x1024x1024 ![] bcast_S_S16x1024x1024 main_cst_12
  let main_v36 : IVec S16x1024x1024 1 := cmpf .olt main_v34 main_v35
  let main_c_13 : IVec S_ 1 := constantI S_ 1 1#1
  let main_v37 : IVec S_ 1 := (fun x v => Host.reduce IntOp.andi x v reducesTo_S16x1024x1024_S_d0_1_2 h_S_) main_v36 main_c_13
  let main_v38 : IVec S_ 1 := andi main_v33 main_v37
  main_v38

def fn_part1 {F : FTy → Type} [FloatOps F] (main_arg4 : FVec F S16x1024x1024 .f32) (main_arg5 : FVec F S16x1024x1024 .f32) (main_arg6 : FVec F S16x1024x1024 .f32) (main_arg7 : FVec F S16x1024x1024 .f32) (main_v13 : IVec S_ 1) (main_v16 : IVec S16x1024x1024 1) : IVec S_ 1 :=
  let main_c_5 : IVec S_ 1 := constantI S_ 1 1#1
  let main_v17 : IVec S_ 1 := (fun x v => Host.reduce IntOp.andi x v reducesTo_S16x1024x1024_S_d0_1_2 h_S_) main_v16 main_c_5
  let main_v18 : IVec S_ 1 := andi main_v13 main_v17
  let main_v19 : FVec F S16x1024x1024 .f32 := Host.absf main_arg4
  let main_cst_6 : FVec F S_ .f32 := constant S_ .f32 0x7F800000#32
  let main_v20 : FVec F S16x1024x1024 .f32 := broadcastInDim S16x1024x1024 ![] bcast_S_S16x1024x1024 main_cst_6
  let main_v21 : IVec S16x1024x1024 1 := cmpf .olt main_v19 main_v20
  let main_c_7 : IVec S_ 1 := constantI S_ 1 1#1
  let main_v22 : IVec S_ 1 := (fun x v => Host.reduce IntOp.andi x v reducesTo_S16x1024x1024_S_d0_1_2 h_S_) main_v21 main_c_7
  let main_v23 : IVec S_ 1 := andi main_v18 main_v22
  let main_v24 : FVec F S16x1024x1024 .f32 := Host.absf main_arg5
  let main_cst_8 : FVec F S_ .f32 := constant S_ .f32 0x7F800000#32
  let main_v25 : FVec F S16x1024x1024 .f32 := broadcastInDim S16x1024x1024 ![] bcast_S_S16x1024x1024 main_cst_8
  let main_v26 : IVec S16x1024x1024 1 := cmpf .olt main_v24 main_v25
  let main_c_9 : IVec S_ 1 := constantI S_ 1 1#1
  let main_v27 : IVec S_ 1 := (fun x v => Host.reduce IntOp.andi x v reducesTo_S16x1024x1024_S_d0_1_2 h_S_) main_v26 main_c_9
  let main_v28 : IVec S_ 1 := andi main_v23 main_v27
  let main_v29 : FVec F S16x1024x1024 .f32 := Host.absf main_arg6
  let main_cst_10 : FVec F S_ .f32 := constant S_ .f32 0x7F800000#32
  let main_v30 : FVec F S16x1024x1024 .f32 := broadcastInDim S16x1024x1024 ![] bcast_S_S16x1024x1024 main_cst_10
  let main_v31 : IVec S16x1024x1024 1 := cmpf .olt main_v29 main_v30
  let main_c_11 : IVec S_ 1 := constantI S_ 1 1#1
  let main_v32 : IVec S_ 1 := (fun x v => Host.reduce IntOp.andi x v reducesTo_S16x1024x1024_S_d0_1_2 h_S_) main_v31 main_c_11
  let main_v33 : IVec S_ 1 := andi main_v28 main_v32
  fn_part2 (F := F) main_arg7 main_v33

def fn {F : FTy → Type} [FloatOps F] (main_arg0 : FVec F S16x1024x1024 .f32) (main_arg1 : FVec F S16x1024x1024 .f32) (main_arg2 : FVec F S16x1024x1024 .f32) (main_arg3 : FVec F S16x1024x1024 .f32) (main_arg4 : FVec F S16x1024x1024 .f32) (main_arg5 : FVec F S16x1024x1024 .f32) (main_arg6 : FVec F S16x1024x1024 .f32) (main_arg7 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S16x1024x1024 .f32 := Host.absf main_arg3
  let main_cst_4 : FVec F S_ .f32 := constant S_ .f32 0x7F800000#32
  let main_v15 : FVec F S16x1024x1024 .f32 := broadcastInDim S16x1024x1024 ![] bcast_S_S16x1024x1024 main_cst_4
  let main_v16 : IVec S16x1024x1024 1 := cmpf .olt main_v14 main_v15
  fn_part1 (F := F) main_arg4 main_arg5 main_arg6 main_arg7 main_v13 main_v16
-- ==== Kernel.lean ====
abbrev S16x1024x1024 : Shape := ⟨3, ![16, 1024, 1024]⟩
abbrev S1x512x1024 : Shape := ⟨3, ![1, 512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S16x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .f32 = 32 ∨ (Rect.block (s := S16x1024x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x1024x1024.size a
  hwx0_3 : ∀ i : grid0.Coords, EltTy.bits .f32 = 32 ∨ (Rect.block (s := S16x1024x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x1024x1024.size a
  hwx0_4 : ∀ i : grid0.Coords, EltTy.bits .f32 = 32 ∨ (Rect.block (s := S16x1024x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S16x1024x1024.size a
  hwx0_5 : ∀ i : grid0.Coords, EltTy.bits .f32 = 32 ∨ (Rect.block (s := S16x1024x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S16x1024x1024.size a
  hwx0_6 : ∀ i : grid0.Coords, EltTy.bits .f32 = 32 ∨ (Rect.block (s := S16x1024x1024) S1x512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S16x1024x1024.size a
  hwx0_7 : ∀ i : grid0.Coords, EltTy.bits .f32 = 32 ∨ (Rect.block (s := S16x1024x1024) S1x512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S16x1024x1024.size a
  hwx0_8 : ∀ i : grid0.Coords, EltTy.bits .f32 = 32 ∨ (Rect.block (s := S16x1024x1024) S1x512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S16x1024x1024.size a
  hwx0_9 : ∀ i : grid0.Coords, EltTy.bits .f32 = 32 ∨ (Rect.block (s := S16x1024x1024) S1x512x1024.size (cc0_transform_9 i) (hinb0_9 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x512x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S_, .f32⟩
  | .hbm, ⟨9, _⟩ => ⟨S16x1024x1024, .f32⟩
  | .hbm, ⟨10, _⟩ => ⟨S_, .f32⟩
  | .hbm, ⟨11, _⟩ => ⟨S16x1024x1024, .f32⟩
  | .hbm, ⟨12, _⟩ => ⟨S_, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S_, .f32⟩
  | .hbm, ⟨17, _⟩ => ⟨S16x1024x1024, .f32⟩
  | .hbm, ⟨18, _⟩ => ⟨S_, .f32⟩
  | .hbm, ⟨19, _⟩ => ⟨S16x1024x1024, .f32⟩
  | .hbm, ⟨20, _⟩ => ⟨S_, .f32⟩
  | .hbm, ⟨21, _⟩ => ⟨S16x1024x1024, .f32⟩
  | .hbm, ⟨22, _⟩ => ⟨S_, .f32⟩
  | .hbm, ⟨23, _⟩ => ⟨S16x1024x1024, .f32⟩
  | .hbm, ⟨24, _⟩ => ⟨S16x1024x1024, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | .hbm, ⟨33, _⟩ => ⟨S16x1024x1024, .f32⟩
  | .hbm, ⟨34, _⟩ => ⟨S16x1024x1024, .f32⟩
  | .hbm, ⟨35, _⟩ => ⟨S16x1024x1024, .f32⟩
  | .hbm, ⟨36, _⟩ => ⟨S16x1024x1024, .f32⟩
  | .hbm, ⟨37, _⟩ => ⟨S16x1024x1024, .f32⟩
  | .hbm, ⟨38, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_cst_4 : Ref sig .tc := ⟨.hbm, 18, rfl⟩
abbrev main_v5 : Ref sig .tc := ⟨.hbm, 19, rfl⟩
abbrev main_cst_5 : Ref sig .tc := ⟨.hbm, 20, rfl⟩
abbrev main_v6 : Ref sig .tc := ⟨.hbm, 21, rfl⟩
abbrev main_cst_6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)

variable [Facts₀]

class Facts : Prop extends Facts₀ where

variable [Facts]
-- ==== Proof.Regroup.lean ====
/-
  Eight extended reals summed two ways.

  One side adds them one at a time from the left: ((((((a0 + a1) + a2) + a3) + a4) + a5) + a6) + a7.
  The other starts every partial sum from zero and adds pair by pair:
  s8 = (0 + a0) + a1, s9 = (0 + a2) + a3, s10 = (0 + s8) + s9, s11 = (0 + a4) + a5, s12 = (0 + s10) + s11,
  s13 = (0 + a6) + a7, s14 = (0 + s12) + s13, and then s15 = 0 + s14.

  The summands occur in the same order on both sides, so the two differ only in where the brackets sit and in
  the zeros added on the left. Addition on the extended reals is an additive monoid (with -inf + +inf = -inf it is
  still associative, and 0 is neutral), so both facts hold for ALL extended reals, the infinities included:
  no summand needs to be finite.
-/
import Idealize.ShloMosaic.PureOps.Ideal

namespace Cert.EightSum

/-- The pairwise sum with every partial sum started from zero is the sum taken one summand at a time from the left:
    dropping the zeros (`zero_add`) and moving every bracket to the right (`add_assoc`) brings both sides to
    a0 + (a1 + (a2 + (a3 + (a4 + (a5 + (a6 + a7)))))). -/
theorem pairwise_eq_chain (a0 a1 a2 a3 a4 a5 a6 a7 : EReal) :
    (0 + ((0 + ((0 + ((0 + a0) + a1)) + ((0 + a2) + a3))) + ((0 + a4) + a5))) + ((0 + a6) + a7)
      = ((((((a0 + a1) + a2) + a3) + a4) + a5) + a6) + a7 := by
  simp only [zero_add, add_assoc]

/-- Adding one more zero on the left of the pairwise sum changes nothing: it is the same left-to-right sum. -/
theorem zero_add_pairwise_eq_chain (a0 a1 a2 a3 a4 a5 a6 a7 : EReal) :
    0 + ((0 + ((0 + ((0 + ((0 + a0) + a1)) + ((0 + a2) + a3))) + ((0 + a4) + a5))) + ((0 + a6) + a7))
      = ((((((a0 + a1) + a2) + a3) + a4) + a5) + a6) + a7 := by
  rw [zero_add, pairwise_eq_chain]

end Cert.EightSum
-- ==== Proof.SumOfEight.lean ====
/-
  Both programs return, twice, the array whose entry at every index of a [16, 1024, 1024] array is the sum of the
  eight argument arrays' entries at that index.

  The kernel cuts the arrays into 32 blocks of shape [1, 512, 1024] (16 along the first axis, 2 along the second,
  the same block of every argument and of both results at a grid point), and inside a block adds the eight
  loaded blocks one at a time from the left, storing that one sum to both results. Put back together over the grid
  this is the generated closed form `G8` (= `G9`): at index i,
  ((((((a0 i + a1 i) + a2 i) + a3 i) + a4 i) + a5 i) + a6 i) + a7 i.

  The reference keeps sixteen slots, the last eight started as arrays of zeros, and walks an edge list adding one
  slot into another. Written out, its first result is the pairwise sum with every partial sum started from the zero
  array, s14 = (0 + ((0 + ((0 + ((0 + a0) + a1)) + ((0 + a2) + a3))) + ((0 + a4) + a5))) + ((0 + a6) + a7),
  and its second result is s15 = 0 + s14.

  Read at an index these are sums of the same eight extended reals in the same order, bracketed differently and
  with zeros added on the left: equal by associativity of + and neutrality of 0 (Regroup.lean), which hold on all of
  the extended reals. So the equality needs no finiteness of the inputs, and the precondition is never opened.
-/
import proofs.«126994_j4767413698605_1_alg».proof.Defs
import proofs.«126994_j4767413698605_1_alg».proof.Proof.Gen.Pre_finite_inputs
import proofs.«126994_j4767413698605_1_alg».proof.Proof.Gen.Kernel.Frame
import proofs.«126994_j4767413698605_1_alg».proof.Proof.Gen.KernelIdeal.Value
import proofs.«126994_j4767413698605_1_alg».proof.Proof.Gen.ReferenceIdeal.Run
import proofs.«126994_j4767413698605_1_alg».proof.Proof.Regroup
import Idealize.ShloMosaic.Lib.ValueIdx
import Idealize.ShloMosaic.PureOps.Ideal.Laws

noncomputable section

open Idealize.ShloMosaic Idealize.ShloMosaic.TcCoe Idealize.SL.Sem

/-! ## The reference's two result terms are the kernel's function -/

namespace Cert.ReferenceIdeal.RefValue

open Cert.ReferenceIdeal Cert.ReferenceIdeal.Gen Cert.ReferenceIdeal.Value

/-- The array a fresh slot starts as: the scalar whose word is all zero bits, repeated over the whole shape. -/
def zeros : FVec Ideal S16x1024x1024 .f32 :=
  broadcastInDim S16x1024x1024 ![] bcast_S_S16x1024x1024 (constant (F := Ideal) S_ .f32 0x00000000#32)

/-- Every entry of that array is the extended real 0: a repeated scalar reads the scalar wherever it is read, and the
    all-zero word of the 32-bit format denotes 0. -/
theorem zeros_apply (i : S16x1024x1024.Idx) : zeros i = (0 : EReal) := by
  simp only [zeros, broadcastInDim, ValueIdx.constant_apply, Ideal.ofBits_zero_f32]

/-- The reference's first result (slot 14) is the kernel's left-to-right sum: at each index the array additions are
    additions of entries, each zero array contributes 0, and the two bracketings agree. -/
theorem slot14_eq (a0 a1 a2 a3 a4 a5 a6 a7 : FVec Ideal S16x1024x1024 .f32) :
    addf (addf zeros (addf (addf zeros (addf (addf zeros (addf (addf zeros a0) a1)) (addf (addf zeros a2) a3))) (addf (addf zeros a4) a5))) (addf (addf zeros a6) a7)
      = Cert.KernelIdeal.Value.G8 (F := Ideal) a0 a1 a2 a3 a4 a5 a6 a7 := by
  funext i
  simp only [Cert.KernelIdeal.Value.G8, ValueIdx.addf_apply, zeros_apply, Ideal.addf_def]
  exact Cert.EightSum.pairwise_eq_chain _ _ _ _ _ _ _ _

/-- The reference's second result (slot 15) is slot 14 added onto one more zero array, hence the same sum again;
    the kernel stores its one sum to both results. -/
theorem slot15_eq (a0 a1 a2 a3 a4 a5 a6 a7 : FVec Ideal S16x1024x1024 .f32) :
    addf zeros (addf (addf zeros (addf (addf zeros (addf (addf zeros (addf (addf zeros a0) a1)) (addf (addf zeros a2) a3))) (addf (addf zeros a4) a5))) (addf (addf zeros a6) a7))
      = Cert.KernelIdeal.Value.G9 (F := Ideal) a0 a1 a2 a3 a4 a5 a6 a7 := by
  funext i
  simp only [Cert.KernelIdeal.Value.G9, ValueIdx.addf_apply, zeros_apply, Ideal.addf_def]
  exact Cert.EightSum.zero_add_pairwise_eq_chain _ _ _ _ _ _ _ _

end Cert.ReferenceIdeal.RefValue

/-! ## The claims -/

namespace Cert.Proof.SumClaims

/-- The word-level kernel terminates without a fault and leaves its eight arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of array operations: its run ends with both results at their terms and the
    arguments unchanged; the frame keeps the last part. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing of the kernel was rewritten on the way to the extended reals, so there is nothing to preserve. -/
theorem preserves : Cert.preserves_Kernel_KernelIdeal := trivial

/-- From memories that agree on the eight arguments, the kernel ends with both results at the left-to-right sum
    and the reference with slot 14 and slot 15: the same two arrays. -/
theorem algebraic : Cert.algebraic_KernelIdeal_ReferenceIdeal := by
  intro m ρ m' ρ' _ hagree
  refine ⟨_, _, Cert.KernelIdeal.Value.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.slot14_eq _ _ _ _ _ _ _ _
  · rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.slot15_eq _ _ _ _ _ _ _ _

end Cert.Proof.SumClaims

end
-- ==== Proof.lean ====
/-
  The kernel and its reference both return, twice, the entrywise sum of eight [16, 1024, 1024] arrays.

  The kernel adds the eight blocks of a grid point one at a time from the left; the reference adds them pair by
  pair into slots that start as zeros, and forms its second result by adding the first onto one more zero array.
  On the extended reals + is associative and 0 is neutral, with no condition on the summands, so at every index
  the two programs hold the same number (Proof/Regroup.lean: the law; Proof/SumOfEight.lean: both programs' results
  read at an index, and the five claims).

  The claim is the conjunction of: the word-level kernel, the kernel over the extended reals and the reference each
  terminate without a fault and leave their arguments unchanged; the passage to the extended reals rewrote nothing
  of the kernel; and the two programs over the extended reals, from memories agreeing on the arguments, end with
  equal results.
-/
import proofs.«126994_j4767413698605_1_alg».proof.Defs
import proofs.«126994_j4767413698605_1_alg».proof.Proof.SumOfEight

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SumClaims.frame_k, SumClaims.frame_ki, SumClaims.frame_ri, SumClaims.preserves, SumClaims.algebraic⟩

end Cert.Proof

end
